-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4x2048x2048 : Shape := ⟨3, ![4, 2048, 2048]⟩
abbrev S4x2048 : Shape := ⟨2, ![4, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_arg4 : FVec F S4x2048 .f32) (main_arg5 : FVec F S4x2048x2048 .f32) (main_arg6 : FVec F S4x2048 .f32) (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  let main_v19 : FVec F S4x2048 .f32 := Host.absf main_arg4
  let main_cst_6 : FVec F S_ .f32 := constant S_ .f32 0x7F800000#32
  let main_v20 : FVec F S4x2048 .f32 := broadcastInDim S4x2048 ![] bcast_S_S4x2048 main_cst_6
  let main_v21 : IVec S4x2048 1 := cmpf .olt main_v19 main_v20
  let main_c_7 : IVec S_ 1 := constantI S_ 1 1#1
  let main_v22 : IVec S_ 1 := (fun x v => Host.reduce IntOp.andi x v reducesTo_S4x2048_S_d0_1 h_S_) main_v21 main_c_7
  let main_v23 : IVec S_ 1 := andi main_v18 main_v22
  let main_v24 : FVec F S4x2048x2048 .f32 := Host.absf main_arg5
  let main_cst_8 : FVec F S_ .f32 := constant S_ .f32 0x7F800000#32
  let main_v25 : FVec F S4x2048x2048 .f32 := broadcastInDim S4x2048x2048 ![] bcast_S_S4x2048x2048 main_cst_8
  let main_v26 : IVec S4x2048x2048 1 := cmpf .olt main_v24 main_v25
  let main_c_9 : IVec S_ 1 := constantI S_ 1 1#1
  let main_v27 : IVec S_ 1 := (fun x v => Host.reduce IntOp.andi x v reducesTo_S4x2048x2048_S_d0_1_2 h_S_) main_v26 main_c_9
  let main_v28 : IVec S_ 1 := andi main_v23 main_v27
  let main_v29 : FVec F S4x2048 .f32 := Host.absf main_arg6
  let main_cst_10 : FVec F S_ .f32 := constant S_ .f32 0x7F800000#32
  let main_v30 : FVec F S4x2048 .f32 := broadcastInDim S4x2048 ![] bcast_S_S4x2048 main_cst_10
  let main_v31 : IVec S4x2048 1 := cmpf .olt main_v29 main_v30
  let main_c_11 : IVec S_ 1 := constantI S_ 1 1#1
  let main_v32 : IVec S_ 1 := (fun x v => Host.reduce IntOp.andi x v reducesTo_S4x2048_S_d0_1 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S4x2048x2048 .f32) (main_arg4 : FVec F S4x2048 .f32) (main_arg5 : FVec F S4x2048x2048 .f32) (main_arg6 : FVec F S4x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4x2048x2048 .f32 := Host.absf main_arg3
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_arg4 main_arg5 main_arg6 main_v13 main_v16
-- ==== Kernel.lean ====
abbrev S4096x2048 : Shape := ⟨2, ![4096, 2048]⟩
abbrev S4x2048x2048 : Shape := ⟨3, ![4, 2048, 2048]⟩
abbrev S4x2048 : Shape := ⟨2, ![4, 2048]⟩
abbrev S2048x4x2048 : Shape := ⟨3, ![2048, 4, 2048]⟩
abbrev S2048x4x8x256 : Shape := ⟨4, ![2048, 4, 8, 256]⟩
abbrev S2048x8x4x256 : Shape := ⟨4, ![2048, 8, 4, 256]⟩
abbrev S2048x8192 : Shape := ⟨2, ![2048, 8192]⟩
abbrev S512x2048 : Shape := ⟨2, ![512, 2048]⟩
abbrev S512x256 : Shape := ⟨2, ![512, 256]⟩
abbrev S2048x1024 : Shape := ⟨2, ![2048, 1024]⟩
abbrev S4x256 : Shape := ⟨2, ![4, 256]⟩
abbrev S512x1024 : Shape := ⟨2, ![512, 1024]⟩
abbrev S1x256 : Shape := ⟨2, ![1, 256]⟩
abbrev S256 : Shape := ⟨1, ![256]⟩

abbrev nBuf : Space → Nat
  | .hbm => 21
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x2048x2048, .f32⟩
  | .hbm, ⟨4, _⟩ => ⟨S4x2048, .f32⟩
  | .hbm, ⟨5, _⟩ => ⟨S4x2048x2048, .f32⟩
  | .hbm, ⟨6, _⟩ => ⟨S4x2048, .f32⟩
  | .hbm, ⟨7, _⟩ => ⟨S2048x4x2048, .f32⟩
  | .hbm, ⟨8, _⟩ => ⟨S2048x4x8x256, .f32⟩
  | .hbm, ⟨9, _⟩ => ⟨S2048x8x4x256, .f32⟩
  | .hbm, ⟨10, _⟩ => ⟨S2048x8192, .f32⟩
  | .hbm, ⟨11, _⟩ => ⟨S2048x8192, .bf16⟩
  | .hbm, ⟨12, _⟩ => ⟨S2048x4x2048, .f32⟩
  | .hbm, ⟨13, _⟩ => ⟨S2048x4x8x256, .f32⟩
  | .hbm, ⟨14, _⟩ => ⟨S2048x8x4x256, .f32⟩
  | .hbm, ⟨15, _⟩ => ⟨S2048x8192, .f32⟩
  | .hbm, ⟨16, _⟩ => ⟨S2048x8192, .bf16⟩
  | .hbm, ⟨17, _⟩ => ⟨S4096x2048, .bf16⟩
  | .hbm, ⟨18, _⟩ => ⟨S4096x2048, .bf16⟩
  | .hbm, ⟨19, _⟩ => ⟨S4096x2048, .f32⟩
  | .hbm, ⟨20, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S4x256, .f32⟩
  | .local _ .vmem, ⟨11, _⟩ => ⟨S4x256, .f32⟩
  | .local _ .vmem, ⟨12, _⟩ => ⟨S4x256, .f32⟩
  | .local _ .vmem, ⟨13, _⟩ => ⟨S4x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  transposes_S4x2048x2048_S2048x4x2048_2_0_1 : S4x2048x2048.Transposes [2, 0, 1] S2048x4x2048
  shapeCasts_S2048x4x2048_S2048x4x8x256 : S2048x4x2048.ShapeCasts S2048x4x8x256
  transposes_S2048x4x8x256_S2048x8x4x256_0_2_1_3 : S2048x4x8x256.Transposes [0, 2, 1, 3] S2048x8x4x256
  shapeCasts_S2048x8x4x256_S2048x8192 : S2048x8x4x256.ShapeCasts S2048x8192
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S512x1024_o0_0_S512x256 : S512x1024.Slices ![0, 0] S512x256
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  broadcasts_S1x256_S512x256 : S1x256.Broadcasts S512x256
  slices_S512x1024_o0_256_S512x256 : S512x1024.Slices ![0, 256] S512x256
  inb_S4x256_S1x256_1_0 : ∀ a, (![1, 0] : Fin 2 → Nat) a + S1x256.size a ≤ S4x256.size a
  slices_S512x1024_o0_512_S512x256 : S512x1024.Slices ![0, 512] S512x256
  inb_S4x256_S1x256_2_0 : ∀ a, (![2, 0] : Fin 2 → Nat) a + S1x256.size a ≤ S4x256.size a
  slices_S512x1024_o0_768_S512x256 : S512x1024.Slices ![0, 768] S512x256
  inb_S4x256_S1x256_3_0 : ∀ a, (![3, 0] : Fin 2 → Nat) a + S1x256.size a ≤ S4x256.size a
  inb_S512x256_S512x256_0_0 : ∀ a, (![0, 0] : Fin 2 → Nat) a + S512x256.size a ≤ S512x256.size a
  h_S512x256 : 0 < S512x256.numel
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x8192.size a
  hwx0_3 : ∀ i : grid0.Coords, EltTy.bits .bf16 = 32 ∨ (Rect.block (s := S2048x8192) S2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x8192.size a
  hwx0_4 : ∀ i : grid0.Coords, EltTy.bits .bf16 = 32 ∨ (Rect.block (s := S2048x8192) S2048x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x2048.size a
  hwx0_5 : ∀ i : grid0.Coords, EltTy.bits .f32 = 32 ∨ (Rect.block (s := S4x2048) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x256.size a ≤ S4x2048.size a
  hwx0_6 : ∀ i : grid0.Coords, EltTy.bits .f32 = 32 ∨ (Rect.block (s := S4x2048) S4x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S4096x2048.size a
  hwx0_7 : ∀ i : grid0.Coords, EltTy.bits .f32 = 32 ∨ (Rect.block (s := S4096x2048) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S4096x2048.size a
  hwx0_8 : ∀ i : grid0.Coords, EltTy.bits .f32 = 32 ∨ (Rect.block (s := S4096x2048) S512x256.size (cc0_transform_8 i) (hinb0_8 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v10) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_0) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_1) S512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4x2048x2048 : Shape := ⟨3, ![4, 2048, 2048]⟩
abbrev S4x2048 : Shape := ⟨2, ![4, 2048]⟩
abbrev S4x2048x4096 : Shape := ⟨3, ![4, 2048, 4096]⟩
abbrev S4x4096x2048 : Shape := ⟨3, ![4, 4096, 2048]⟩
abbrev S4x1x2048 : Shape := ⟨3, ![4, 1, 2048]⟩
abbrev S1x4096x2048 : Shape := ⟨3, ![1, 4096, 2048]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4x2048x2048, .f32⟩
  | .hbm, ⟨4, _⟩ => ⟨S4x2048, .f32⟩
  | .hbm, ⟨5, _⟩ => ⟨S4x2048x2048, .f32⟩
  | .hbm, ⟨6, _⟩ => ⟨S4x2048, .f32⟩
  | .hbm, ⟨7, _⟩ => ⟨S4x2048x4096, .f32⟩
  | .hbm, ⟨8, _⟩ => ⟨S4x4096x2048, .f32⟩
  | .hbm, ⟨9, _⟩ => ⟨S4x1x2048, .f32⟩
  | .hbm, ⟨10, _⟩ => ⟨S4x4096x2048, .f32⟩
  | .hbm, ⟨11, _⟩ => ⟨S4x4096x2048, .f32⟩
  | .hbm, ⟨12, _⟩ => ⟨S4x2048x4096, .f32⟩
  | .hbm, ⟨13, _⟩ => ⟨S4x4096x2048, .f32⟩
  | .hbm, ⟨14, _⟩ => ⟨S4x4096x2048, .f32⟩
  | .hbm, ⟨15, _⟩ => ⟨S4x1x2048, .f32⟩
  | .hbm, ⟨16, _⟩ => ⟨S4x4096x2048, .f32⟩
  | .hbm, ⟨17, _⟩ => ⟨S4x4096x2048, .f32⟩
  | .hbm, ⟨18, _⟩ => ⟨S1x4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S1x4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S1x4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S1x4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S4x2048x4096_S4x4096x2048_0_2_1 : S4x2048x4096.Transposes [0, 2, 1] S4x4096x2048
  bcast_S4x2048_S4x1x2048_0_2 : S4x2048.BroadcastsInDim S4x1x2048 (![0, 2] : Fin 2 → Fin S4x1x2048.rank)
  bcast_S4x1x2048_S4x4096x2048_0_1_2 : S4x1x2048.BroadcastsInDim S4x4096x2048 (![0, 1, 2] : Fin 3 → Fin S4x4096x2048.rank)
  slices_S4x4096x2048_S1x4096x2048_0_0_0 : S4x4096x2048.Slices ![0, 0, 0] S1x4096x2048
  shapeCasts_S1x4096x2048_S4096x2048 : S1x4096x2048.ShapeCasts S4096x2048
  bcast_S_S4096x2048 : S_.BroadcastsInDim S4096x2048 (![] : Fin 0 → Fin S4096x2048.rank)
  slices_S4x4096x2048_S1x4096x2048_1_0_0 : S4x4096x2048.Slices ![1, 0, 0] S1x4096x2048
  slices_S4x4096x2048_S1x4096x2048_2_0_0 : S4x4096x2048.Slices ![2, 0, 0] S1x4096x2048
  slices_S4x4096x2048_S1x4096x2048_3_0_0 : S4x4096x2048.Slices ![3, 0, 0] S1x4096x2048
  dot_S4x2048x2048_S4096x2048_S4x2048x4096_2_1_01_0_n_n_wf : DotDims.WF S4x2048x2048 S4096x2048 S4x2048x4096 [2] [1] [0, 1] [0] [] []

variable [Facts₀]

def dot_S4x2048x2048_S4096x2048_S4x2048x4096_2_1_01_0_n_n : DotDims S4x2048x2048 S4096x2048 S4x2048x4096 where
  lhsContracting := [2]
  rhsContracting := [1]
  lhsNonContracting := [0, 1]
  rhsNonContracting := [0]
  lhsBatch := []
  rhsBatch := []
  wf := dot_S4x2048x2048_S4096x2048_S4x2048x4096_2_1_01_0_n_n_wf

class Facts : Prop extends Facts₀ where

variable [Facts]
-- ==== Proof.LstmCell.lean ====
/-
  One step of an LSTM cell over the extended reals, as a function of its seven arrays: activations x and h and the old
  cell state c of shape [4096, 2048], two stacks of four weight matrices Wx and Wh of shape [4, 2048, 2048] (gate, output
  feature, input feature) and two stacks of four bias rows bx and bh of shape [4, 2048].

  The pre-activation of gate g at batch row b and output feature o is
      pre g b o = Σₖ x(b,k)·Wx(g,o,k) + Σₖ h(b,k)·Wh(g,o,k) + bx(g,o) + bh(g,o),
  the new cell state is  σ(pre 1)·c + σ(pre 0)·tanh(pre 3)  and the new hidden state is  σ(pre 2)·tanh(new cell),
  with σ z = 1 / (1 + e^(-z)).

  The only algebra used between two ways of writing the pre-activation is that addition and multiplication of extended
  reals are commutative and addition is associative: no term is cancelled or distributed, so nothing here needs the
  entries to be finite.
-/
import Idealize.ShloMosaic.Lib.ValueIdx
import Idealize.ShloMosaic.Lib.IdealHost
import Idealize.ShloMosaic.PureOps.Ideal

noncomputable section

namespace Cert.Lstm

open Idealize.ShloMosaic Idealize.ShloMosaic.ValueIdx

/-- Activations and cell state: [batch, feature]. -/
abbrev SAct : Shape := ⟨2, ![4096, 2048]⟩
/-- A stack of four weight matrices: [gate, output feature, input feature]. -/
abbrev SWt : Shape := ⟨3, ![4, 2048, 2048]⟩
/-- A stack of four bias rows: [gate, output feature]. -/
abbrev SBias : Shape := ⟨2, ![4, 2048]⟩

variable (x h c : SAct.Idx → EReal) (Wx Wh : SWt.Idx → EReal) (bx bh : SBias.Idx → EReal)

/-- The pre-activation of gate `g` at batch row `b`, output feature `o`: both products first, then both biases. -/
def pre (g : Fin 4) (b : Fin 4096) (o : Fin 2048) : EReal :=
  (∑ k : Fin 2048, x (ix2 b k) * Wx (ix3 g o k)) + (∑ k : Fin 2048, h (ix2 b k) * Wh (ix3 g o k))
    + bx (ix2 g o) + bh (ix2 g o)

/-- The same pre-activation summed in the other order — weight times activation inside each product, and the x-side bias
    added before the h-side product: equal by commutativity of the product and of the sum. -/
theorem pre_regrouped (g : Fin 4) (b : Fin 4096) (o : Fin 2048) :
    (∑ k : Fin 2048, Wx (ix3 g o k) * x (ix2 b k)) + bx (ix2 g o) + (∑ k : Fin 2048, Wh (ix3 g o k) * h (ix2 b k))
        + bh (ix2 g o)
      = pre x h Wx Wh bx bh g b o := by
  have e1 : (∑ k : Fin 2048, Wx (ix3 g o k) * x (ix2 b k)) = ∑ k : Fin 2048, x (ix2 b k) * Wx (ix3 g o k) :=
    Finset.sum_congr rfl fun k _ => mul_comm _ _
  have e2 : (∑ k : Fin 2048, Wh (ix3 g o k) * h (ix2 b k)) = ∑ k : Fin 2048, h (ix2 b k) * Wh (ix3 g o k) :=
    Finset.sum_congr rfl fun k _ => mul_comm _ _
  rw [e1, e2]
  unfold pre
  rw [add_right_comm (∑ k : Fin 2048, x (ix2 b k) * Wx (ix3 g o k)) (bx (ix2 g o))]

/-- The new cell state at (b, o): forget gate times old state plus input gate times candidate. -/
def cell (b : Fin 4096) (o : Fin 2048) : EReal :=
  Ideal.logistic (pre x h Wx Wh bx bh 1 b o) * c (ix2 b o)
    + Ideal.logistic (pre x h Wx Wh bx bh 0 b o) * Ideal.tanh (pre x h Wx Wh bx bh 3 b o)

/-- The new hidden state at (b, o): output gate times tanh of the new cell state. -/
def hidden (b : Fin 4096) (o : Fin 2048) : EReal :=
  Ideal.logistic (pre x h Wx Wh bx bh 2 b o) * Ideal.tanh (cell x h c Wx Wh bx bh b o)

/-- The new cell state as an array. -/
def cellArr : SAct.Idx → EReal := fun i => cell x h c Wx Wh bx bh (i 0) (i 1)

/-- The new hidden state as an array. -/
def hiddenArr : SAct.Idx → EReal := fun i => hidden x h c Wx Wh bx bh (i 0) (i 1)

/-- The sigmoid written out with the float word 1.0 — one over (one plus e to the minus z) — is the logistic function. -/
theorem one_div_one_add_exp_neg (z : EReal) :
    Ideal.div (Ideal.ofBits .f32 0x3F800000#32) (Ideal.ofBits .f32 0x3F800000#32 + Ideal.exp (-z)) = Ideal.logistic z := by
  rw [Ideal.ofBits_one_f32]
  rfl

end Cert.Lstm

end
-- ==== Proof.LstmTile.lean ====
/-
  One tile of the LSTM step: what a [512 (batch rows), 256 (output features)] tile of the new hidden and cell states is,
  written over the pieces of the arrays that the tile depends on — 512 rows of x and h, the tile's 512 × 256 piece of c, the
  1024 columns of each re-laid weight matrix that belong to the tile's 256 output features (gate g's 256 columns at
  positions g·256 … g·256 + 255), and the tile's 256 columns of the two bias stacks.

  `tile_pre_eq` says that, when those pieces are the corresponding parts of the whole arrays (tile (i, j) of an 8 × 8
  tiling, the re-laid weights being related to the weight stacks as in WeightRepack.lean), the tile's pre-activation at
  (r, s) is the whole step's pre-activation at batch row i·512 + r and output feature j·256 + s. Independent of any program.
-/
import proofs.«122847_j6365141533233_2_alg».proof.Proof.LstmCell

noncomputable section

namespace Cert.Lstm

open Idealize.ShloMosaic Idealize.ShloMosaic.ValueIdx

/-- 512 rows of activations. -/
abbrev STileAct : Shape := ⟨2, ![512, 2048]⟩
/-- The 1024 re-laid weight columns of one tile of output features: four gates × 256. -/
abbrev STileWt : Shape := ⟨2, ![2048, 1024]⟩
/-- The 256 bias columns of one tile of output features, per gate. -/
abbrev STileBias : Shape := ⟨2, ![4, 256]⟩
/-- One tile of the cell state. -/
abbrev STileOut : Shape := ⟨2, ![512, 256]⟩

/-- Gate `g`'s column `s` among a tile's 1024 weight columns. -/
abbrev gateCol (g : Fin 4) (s : Fin 256) : Fin 1024 := ⟨g.val * 256 + s.val, by have := g.isLt; have := s.isLt; omega⟩

variable (X H : STileAct.Idx → EReal) (C : STileOut.Idx → EReal) (WX WH : STileWt.Idx → EReal)
  (BX BH : STileBias.Idx → EReal)

/-- The tile's pre-activation of gate `g` at row `r`, column `s`. -/
def tilePre (g : Fin 4) (r : Fin 512) (s : Fin 256) : EReal :=
  (∑ k : Fin 2048, X (ix2 r k) * WX (ix2 k (gateCol g s))) + (∑ k : Fin 2048, H (ix2 r k) * WH (ix2 k (gateCol g s)))
    + BX (ix2 g s) + BH (ix2 g s)

/-- The tile of the new cell state. -/
def tileCell (r : Fin 512) (s : Fin 256) : EReal :=
  Ideal.logistic (tilePre X H WX WH BX BH 1 r s) * C (ix2 r s)
    + Ideal.logistic (tilePre X H WX WH BX BH 0 r s) * Ideal.tanh (tilePre X H WX WH BX BH 3 r s)

/-- The tile of the new hidden state. -/
def tileHidden (r : Fin 512) (s : Fin 256) : EReal :=
  Ideal.logistic (tilePre X H WX WH BX BH 2 r s) * Ideal.tanh (tileCell X H C WX WH BX BH r s)

section Whole

variable (x h c : SAct.Idx → EReal) (Wx Wh : SWt.Idx → EReal) (bx bh : SBias.Idx → EReal)
  (i j : Fin 8)

/-- Row `r` of batch tile `i`. -/
abbrev tileRow (i : Fin 8) (r : Fin 512) : Fin 4096 := ⟨i.val * 512 + r.val, by have := i.isLt; have := r.isLt; omega⟩
/-- Column `s` of feature tile `j`. -/
abbrev tileFeat (j : Fin 8) (s : Fin 256) : Fin 2048 := ⟨j.val * 256 + s.val, by have := j.isLt; have := s.isLt; omega⟩

/-- The pieces are the parts of the whole arrays that tile (i, j) depends on. -/
structure IsTile : Prop where
  act_x : ∀ (r : Fin 512) (k : Fin 2048), X (ix2 r k) = x (ix2 (tileRow i r) k)
  act_h : ∀ (r : Fin 512) (k : Fin 2048), H (ix2 r k) = h (ix2 (tileRow i r) k)
  state : ∀ (r : Fin 512) (s : Fin 256), C (ix2 r s) = c (ix2 (tileRow i r) (tileFeat j s))
  wt_x : ∀ (k : Fin 2048) (g : Fin 4) (s : Fin 256), WX (ix2 k (gateCol g s)) = Wx (ix3 g (tileFeat j s) k)
  wt_h : ∀ (k : Fin 2048) (g : Fin 4) (s : Fin 256), WH (ix2 k (gateCol g s)) = Wh (ix3 g (tileFeat j s) k)
  bias_x : ∀ (g : Fin 4) (s : Fin 256), BX (ix2 g s) = bx (ix2 g (tileFeat j s))
  bias_h : ∀ (g : Fin 4) (s : Fin 256), BH (ix2 g s) = bh (ix2 g (tileFeat j s))

variable {X H C WX WH BX BH x h c Wx Wh bx bh i j}

theorem tile_pre_eq (T : IsTile X H C WX WH BX BH x h c Wx Wh bx bh i j) (g : Fin 4) (r : Fin 512) (s : Fin 256) :
    tilePre X H WX WH BX BH g r s = pre x h Wx Wh bx bh g (tileRow i r) (tileFeat j s) := by
  unfold tilePre pre
  simp only [T.act_x, T.act_h, T.wt_x, T.wt_h, T.bias_x, T.bias_h]

theorem tile_cell_eq (T : IsTile X H C WX WH BX BH x h c Wx Wh bx bh i j) (r : Fin 512) (s : Fin 256) :
    tileCell X H C WX WH BX BH r s = cell x h c Wx Wh bx bh (tileRow i r) (tileFeat j s) := by
  unfold tileCell cell
  rw [tile_pre_eq T, tile_pre_eq T, tile_pre_eq T, T.state]

theorem tile_hidden_eq (T : IsTile X H C WX WH BX BH x h c Wx Wh bx bh i j) (r : Fin 512) (s : Fin 256) :
    tileHidden X H C WX WH BX BH r s = hidden x h c Wx Wh bx bh (tileRow i r) (tileFeat j s) := by
  unfold tileHidden hidden
  rw [tile_pre_eq T, tile_cell_eq T]

end Whole

end Cert.Lstm

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.KernelTile.lean ====
/-
  What one grid point of the kernel leaves in its two output blocks, as functions of the seven input blocks it reads.

  At a grid point the kernel multiplies the 512 rows of x by the tile's 1024 re-laid weight columns, does the same for h,
  and adds the two [512, 1024] products. It then cuts the sum into four [512, 256] pieces — gate g's at columns
  g·256 … g·256 + 255 —, adds to piece g row g of each of the two [4, 256] bias blocks (broadcast down the rows),
  applies the logistic function to pieces 0, 1, 2 and tanh to piece 3, and combines them with the [512, 256] block of the
  old cell state. That is the tile of LstmTile.lean.
-/
import proofs.«122847_j6365141533233_2_alg».proof.Proof.Gen.KernelIdeal.Value
import proofs.«122847_j6365141533233_2_alg».proof.Proof.LstmTile
import proofs.«122847_j6365141533233_2_alg».proof.Proof.LibPlainDot

noncomputable section

namespace Cert.KernelIdeal.TileValue

open Cert.KernelIdeal Cert.KernelIdeal.Gen Idealize.ShloMosaic Idealize.ShloMosaic.ValueIdx
open Cert.Lstm

theorem zero_offsets : (![0, 0] : Fin 2 → Nat) = fun _ => 0 := funext fun a => by fin_cases a <;> rfl

/-- The sum of the two matrix products, at row `r` and column `q`: a sum over the 2048 input features on each side. -/
theorem products_apply (P0 P2 : Vec Ideal S512x2048 .bf16) (P1 P3 : Vec Ideal S2048x1024 .bf16) (r : Fin 512) (q : Fin 1024) :
    k0_pay3 (F := Ideal) P0 P1 P2 P3 (ix2 r q)
      = (∑ k : Fin 2048, P0 (ix2 r k) * P1 (ix2 k q)) + ∑ k : Fin 2048, P2 (ix2 r k) * P3 (ix2 k q) := by
  have e1 : FloatOps.matmul (φ₁ := .bf16) (φ₂ := .bf16) dot_S512x2048_S2048x1024_S512x1024_1_0_0_1_n_n none P0 P1
        (constant (F := Ideal) S512x1024 .f32 0x00000000#32) (ix2 r q) = ∑ k : Fin 2048, P0 (ix2 r k) * P1 (ix2 k q) :=
    Cert.Lib.matmul_zero_apply (M := 512) (K := 2048) (N := 1024) (φ₁ := .bf16) (φ₂ := .bf16) dot_S512x2048_S2048x1024_S512x1024_1_0_0_1_n_n.wf none P0 P1 r q
  have e2 : FloatOps.matmul (φ₁ := .bf16) (φ₂ := .bf16) dot_S512x2048_S2048x1024_S512x1024_1_0_0_1_n_n none P2 P3
        (constant (F := Ideal) S512x1024 .f32 0x00000000#32) (ix2 r q) = ∑ k : Fin 2048, P2 (ix2 r k) * P3 (ix2 k q) :=
    Cert.Lib.matmul_zero_apply (M := 512) (K := 2048) (N := 1024) (φ₁ := .bf16) (φ₂ := .bf16) dot_S512x2048_S2048x1024_S512x1024_1_0_0_1_n_n.wf none P2 P3 r q
  unfold k0_pay3
  simp only [shapeCast_self]
  show FloatOps.matmul (φ₁ := .bf16) (φ₂ := .bf16) dot_S512x2048_S2048x1024_S512x1024_1_0_0_1_n_n none P0 P1
        (constant (F := Ideal) S512x1024 .f32 0x00000000#32) (ix2 r q)
      + FloatOps.matmul (φ₁ := .bf16) (φ₂ := .bf16) dot_S512x2048_S2048x1024_S512x1024_1_0_0_1_n_n none P2 P3
        (constant (F := Ideal) S512x1024 .f32 0x00000000#32) (ix2 r q) = _
  rw [e1, e2]

/-- Row `g` of a [4, 256] bias block, loaded as a [1, 256] row, at column `s`. -/
theorem bias_row_apply (x : Vec Ideal S4x256 .f32) (off : Fin 2 → Nat) (inb : ∀ a, off a + S1x256.size a ≤ S4x256.size a)
    (g : Fin 4) (h0 : off 0 = g.val) (h1 : off 1 = 0) (s : Fin 256) :
    View.ld x (Rect.unit (s := S4x256) off S1x256.size inb) (ix2 (0 : Fin 1) s) = x (ix2 g s) := by
  show x ((Rect.unit (s := S4x256) off S1x256.size inb).idx (ix2 (0 : Fin 1) s)) = _
  congr 1
  funext a
  apply Fin.ext
  match a with
  | ⟨0, _⟩ => show off 0 + 1 * 0 = g.val; omega
  | ⟨1, _⟩ => show off 1 + 1 * s.val = s.val; omega

section Loads

variable (P0 P2 : Vec Ideal S512x2048 .bf16) (P1 P3 : Vec Ideal S2048x1024 .bf16)

/-- The block of the new hidden state over the values the body loads, at (r, s). -/
theorem hidden_loads_apply (P4 P5 P6 P7 : Vec Ideal S1x256 .f32) (P8 : Vec Ideal S512x256 .f32) (P9 P10 P11 P12 : Vec Ideal S1x256 .f32)
    (r : Fin 512) (s : Fin 256) :
    Value.E7 (F := Ideal) P0 P1 P2 P3 P4 P5 P6 P7 P8 P9 P10 P11 P12 (ix2 r s)
      = Ideal.logistic (k0_pay3 (F := Ideal) P0 P1 P2 P3 (ix2 r (gateCol 2 s)) + P4 (ix2 (0 : Fin 1) s) + P5 (ix2 (0 : Fin 1) s))
        * Ideal.tanh
          (Ideal.logistic (k0_pay3 (F := Ideal) P0 P1 P2 P3 (ix2 r (gateCol 1 s)) + P6 (ix2 (0 : Fin 1) s) + P7 (ix2 (0 : Fin 1) s)) * P8 (ix2 r s)
            + Ideal.logistic (k0_pay3 (F := Ideal) P0 P1 P2 P3 (ix2 r (gateCol 0 s)) + P9 (ix2 (0 : Fin 1) s) + P10 (ix2 (0 : Fin 1) s))
              * Ideal.tanh (k0_pay3 (F := Ideal) P0 P1 P2 P3 (ix2 r (gateCol 3 s)) + P11 (ix2 (0 : Fin 1) s) + P12 (ix2 (0 : Fin 1) s))) := by
  have hs := s.isLt
  have e7_0 : Value.ix7_0 (ix2 r s) = ix2 r (gateCol 2 s) := funext fun a => Fin.ext (by
    match a with
    | ⟨0, _⟩ => rfl
    | ⟨1, _⟩ => show s.val + 512 = 2 * 256 + s.val; omega)
  have e7_1 : Value.ix7_1 (ix2 r s) = ix2 (0 : Fin 1) s := funext fun a => Fin.ext (by
    match a with
    | ⟨0, _⟩ => rfl
    | ⟨1, _⟩ => rfl)
  have e7_2 : Value.ix7_2 (ix2 r s) = ix2 (0 : Fin 1) s := funext fun a => Fin.ext (by
    match a with
    | ⟨0, _⟩ => rfl
    | ⟨1, _⟩ => rfl)
  have e7_3 : Value.ix7_3 (ix2 r s) = ix2 r (gateCol 1 s) := funext fun a => Fin.ext (by
    match a with
    | ⟨0, _⟩ => rfl
    | ⟨1, _⟩ => show s.val + 256 = 1 * 256 + s.val; omega)
  have e7_4 : Value.ix7_4 (ix2 r s) = ix2 (0 : Fin 1) s := funext fun a => Fin.ext (by
    match a with
    | ⟨0, _⟩ => rfl
    | ⟨1, _⟩ => rfl)
  have e7_5 : Value.ix7_5 (ix2 r s) = ix2 (0 : Fin 1) s := funext fun a => Fin.ext (by
    match a with
    | ⟨0, _⟩ => rfl
    | ⟨1, _⟩ => rfl)
  have e7_6 : Value.ix7_6 (ix2 r s) = ix2 r s := funext fun a => Fin.ext (by
    match a with
    | ⟨0, _⟩ => rfl
    | ⟨1, _⟩ => rfl)
  have e7_7 : Value.ix7_7 (ix2 r s) = ix2 r (gateCol 0 s) := funext fun a => Fin.ext (by
    match a with
    | ⟨0, _⟩ => rfl
    | ⟨1, _⟩ => show s.val = 0 * 256 + s.val; omega)
  have e7_8 : Value.ix7_8 (ix2 r s) = ix2 (0 : Fin 1) s := funext fun a => Fin.ext (by
    match a with
    | ⟨0, _⟩ => rfl
    | ⟨1, _⟩ => rfl)
  have e7_9 : Value.ix7_9 (ix2 r s) = ix2 (0 : Fin 1) s := funext fun a => Fin.ext (by
    match a with
    | ⟨0, _⟩ => rfl
    | ⟨1, _⟩ => rfl)
  have e7_10 : Value.ix7_10 (ix2 r s) = ix2 r (gateCol 3 s) := funext fun a => Fin.ext (by
    match a with
    | ⟨0, _⟩ => rfl
    | ⟨1, _⟩ => show s.val + 768 = 3 * 256 + s.val; omega)
  have e7_11 : Value.ix7_11 (ix2 r s) = ix2 (0 : Fin 1) s := funext fun a => Fin.ext (by
    match a with
    | ⟨0, _⟩ => rfl
    | ⟨1, _⟩ => rfl)
  have e7_12 : Value.ix7_12 (ix2 r s) = ix2 (0 : Fin 1) s := funext fun a => Fin.ext (by
    match a with
    | ⟨0, _⟩ => rfl
    | ⟨1, _⟩ => rfl)
  show FloatOps.mulf (FloatOps.logistic (FloatOps.addf (FloatOps.addf (k0_pay3 (F := Ideal) P0 P1 P2 P3 (Value.ix7_0 (ix2 r s))) (P4 (Value.ix7_1 (ix2 r s)))) (P5 (Value.ix7_2 (ix2 r s)))))
      (FloatOps.tanh (FloatOps.addf
        (FloatOps.mulf (FloatOps.logistic (FloatOps.addf (FloatOps.addf (k0_pay3 (F := Ideal) P0 P1 P2 P3 (Value.ix7_3 (ix2 r s))) (P6 (Value.ix7_4 (ix2 r s)))) (P7 (Value.ix7_5 (ix2 r s))))) (P8 (Value.ix7_6 (ix2 r s))))
        (FloatOps.mulf (FloatOps.logistic (FloatOps.addf (FloatOps.addf (k0_pay3 (F := Ideal) P0 P1 P2 P3 (Value.ix7_7 (ix2 r s))) (P9 (Value.ix7_8 (ix2 r s)))) (P10 (Value.ix7_9 (ix2 r s)))))
          (FloatOps.tanh (FloatOps.addf (FloatOps.addf (k0_pay3 (F := Ideal) P0 P1 P2 P3 (Value.ix7_10 (ix2 r s))) (P11 (Value.ix7_11 (ix2 r s)))) (P12 (Value.ix7_12 (ix2 r s)))))))) = _
  rw [e7_0, e7_1, e7_2, e7_3, e7_4, e7_5, e7_6, e7_7, e7_8, e7_9, e7_10, e7_11, e7_12]
  rfl

/-- The block of the new cell state over the values the body loads, at (r, s). -/
theorem cell_loads_apply (P4 P5 : Vec Ideal S1x256 .f32) (P6 : Vec Ideal S512x256 .f32) (P7 P8 P9 P10 : Vec Ideal S1x256 .f32)
    (r : Fin 512) (s : Fin 256) :
    Value.E8 (F := Ideal) P0 P1 P2 P3 P4 P5 P6 P7 P8 P9 P10 (ix2 r s)
      = Ideal.logistic (k0_pay3 (F := Ideal) P0 P1 P2 P3 (ix2 r (gateCol 1 s)) + P4 (ix2 (0 : Fin 1) s) + P5 (ix2 (0 : Fin 1) s)) * P6 (ix2 r s)
        + Ideal.logistic (k0_pay3 (F := Ideal) P0 P1 P2 P3 (ix2 r (gateCol 0 s)) + P7 (ix2 (0 : Fin 1) s) + P8 (ix2 (0 : Fin 1) s))
          * Ideal.tanh (k0_pay3 (F := Ideal) P0 P1 P2 P3 (ix2 r (gateCol 3 s)) + P9 (ix2 (0 : Fin 1) s) + P10 (ix2 (0 : Fin 1) s)) := by
  have hs := s.isLt
  have e8_0 : Value.ix8_0 (ix2 r s) = ix2 r (gateCol 1 s) := funext fun a => Fin.ext (by
    match a with
    | ⟨0, _⟩ => rfl
    | ⟨1, _⟩ => show s.val + 256 = 1 * 256 + s.val; omega)
  have e8_1 : Value.ix8_1 (ix2 r s) = ix2 (0 : Fin 1) s := funext fun a => Fin.ext (by
    match a with
    | ⟨0, _⟩ => rfl
    | ⟨1, _⟩ => rfl)
  have e8_2 : Value.ix8_2 (ix2 r s) = ix2 (0 : Fin 1) s := funext fun a => Fin.ext (by
    match a with
    | ⟨0, _⟩ => rfl
    | ⟨1, _⟩ => rfl)
  have e8_3 : Value.ix8_3 (ix2 r s) = ix2 r s := funext fun a => Fin.ext (by
    match a with
    | ⟨0, _⟩ => rfl
    | ⟨1, _⟩ => rfl)
  have e8_4 : Value.ix8_4 (ix2 r s) = ix2 r (gateCol 0 s) := funext fun a => Fin.ext (by
    match a with
    | ⟨0, _⟩ => rfl
    | ⟨1, _⟩ => show s.val = 0 * 256 + s.val; omega)
  have e8_5 : Value.ix8_5 (ix2 r s) = ix2 (0 : Fin 1) s := funext fun a => Fin.ext (by
    match a with
    | ⟨0, _⟩ => rfl
    | ⟨1, _⟩ => rfl)
  have e8_6 : Value.ix8_6 (ix2 r s) = ix2 (0 : Fin 1) s := funext fun a => Fin.ext (by
    match a with
    | ⟨0, _⟩ => rfl
    | ⟨1, _⟩ => rfl)
  have e8_7 : Value.ix8_7 (ix2 r s) = ix2 r (gateCol 3 s) := funext fun a => Fin.ext (by
    match a with
    | ⟨0, _⟩ => rfl
    | ⟨1, _⟩ => show s.val + 768 = 3 * 256 + s.val; omega)
  have e8_8 : Value.ix8_8 (ix2 r s) = ix2 (0 : Fin 1) s := funext fun a => Fin.ext (by
    match a with
    | ⟨0, _⟩ => rfl
    | ⟨1, _⟩ => rfl)
  have e8_9 : Value.ix8_9 (ix2 r s) = ix2 (0 : Fin 1) s := funext fun a => Fin.ext (by
    match a with
    | ⟨0, _⟩ => rfl
    | ⟨1, _⟩ => rfl)
  show FloatOps.addf
      (FloatOps.mulf (FloatOps.logistic (FloatOps.addf (FloatOps.addf (k0_pay3 (F := Ideal) P0 P1 P2 P3 (Value.ix8_0 (ix2 r s))) (P4 (Value.ix8_1 (ix2 r s)))) (P5 (Value.ix8_2 (ix2 r s))))) (P6 (Value.ix8_3 (ix2 r s))))
      (FloatOps.mulf (FloatOps.logistic (FloatOps.addf (FloatOps.addf (k0_pay3 (F := Ideal) P0 P1 P2 P3 (Value.ix8_4 (ix2 r s))) (P7 (Value.ix8_5 (ix2 r s)))) (P8 (Value.ix8_6 (ix2 r s)))))
        (FloatOps.tanh (FloatOps.addf (FloatOps.addf (k0_pay3 (F := Ideal) P0 P1 P2 P3 (Value.ix8_7 (ix2 r s))) (P9 (Value.ix8_8 (ix2 r s)))) (P10 (Value.ix8_9 (ix2 r s)))))) = _
  rw [e8_0, e8_1, e8_2, e8_3, e8_4, e8_5, e8_6, e8_7, e8_8, e8_9]
  rfl

end Loads

section Blocks

variable (x0 x1 : Vec Ideal S512x2048 .bf16) (x2 : Vec Ideal S512x256 .f32) (x3 x4 : Vec Ideal S2048x1024 .bf16)
  (x5 x6 : Vec Ideal S4x256 .f32)

/-- What a grid point leaves in the hidden-state block is the tile of the new hidden state of its seven input blocks. -/
theorem hidden_block_apply (y : S512x256.Idx) :
    out0_7 (F := Ideal) x0 x1 x2 x3 x4 x5 x6 y = tileHidden x0 x1 x2 x3 x4 x5 x6 (y 0) (y 1) := by
  obtain ⟨r, s, rfl⟩ : ∃ (r : Fin 512) (s : Fin 256), y = ix2 r s := ⟨y 0, y 1, eq_ix2 y⟩
  unfold out0_7
  rw [Value.canon7_eq, hidden_loads_apply]
  simp only [View.ld_unit_zero (S := S512x2048) zero_offsets, View.ld_unit_zero (S := S2048x1024) zero_offsets,
    products_apply]
  rw [show View.ld x2 r0_6 = x2 from View.ld_unit_zero (S := S512x256) zero_offsets _ x2,
    bias_row_apply x5 _ _ 2 rfl rfl s, bias_row_apply x6 _ _ 2 rfl rfl s, bias_row_apply x5 _ _ 1 rfl rfl s,
    bias_row_apply x6 _ _ 1 rfl rfl s, bias_row_apply x5 _ _ 0 rfl rfl s, bias_row_apply x6 _ _ 0 rfl rfl s,
    bias_row_apply x5 _ _ 3 rfl rfl s, bias_row_apply x6 _ _ 3 rfl rfl s]
  rfl

/-- What a grid point leaves in the cell-state block is the tile of the new cell state of its seven input blocks. -/
theorem cell_block_apply (y : S512x256.Idx) :
    out0_8 (F := Ideal) x0 x1 x2 x3 x4 x5 x6 y = tileCell x0 x1 x2 x3 x4 x5 x6 (y 0) (y 1) := by
  obtain ⟨r, s, rfl⟩ : ∃ (r : Fin 512) (s : Fin 256), y = ix2 r s := ⟨y 0, y 1, eq_ix2 y⟩
  unfold out0_8
  rw [Value.canon8_eq, cell_loads_apply]
  simp only [View.ld_unit_zero (S := S512x2048) zero_offsets, View.ld_unit_zero (S := S2048x1024) zero_offsets,
    products_apply]
  rw [show View.ld x2 r0_6 = x2 from View.ld_unit_zero (S := S512x256) zero_offsets _ x2,
    bias_row_apply x5 _ _ 1 rfl rfl s, bias_row_apply x6 _ _ 1 rfl rfl s, bias_row_apply x5 _ _ 0 rfl rfl s,
    bias_row_apply x6 _ _ 0 rfl rfl s, bias_row_apply x5 _ _ 3 rfl rfl s, bias_row_apply x6 _ _ 3 rfl rfl s]
  rfl

end Blocks

end Cert.KernelIdeal.TileValue

end
-- ==== Proof.WeightRepack.lean ====
/-
  The weights as the kernel's wrapper lays them out, read at an index. Independent of any program.

  A stack W of four [2048 (output feature), 2048 (input feature)] matrices is re-laid as one [2048 (input feature), 8192]
  matrix in four steps: move the input-feature axis to the front ([k, g, o]); split the output feature o into a tile jt
  (of eight) and a position s inside the tile (of 256) ([k, g, jt, s]); swap gate and tile ([k, jt, g, s]); and merge the
  three trailing axes into one column index jt·1024 + g·256 + s. So the column block of width 1024 that belongs to tile jt
  holds, side by side, the four gates' 256 columns of that tile, and

      repacked(k, jt·1024 + g·256 + s) = W(g, jt·256 + s, k).
-/
import Idealize.ShloMosaic.Lib.Pipeline.Value
import Idealize.ShloMosaic.Lib.ValueIdx

noncomputable section

namespace Cert.Lstm

open Idealize.ShloMosaic Idealize.ShloMosaic.ValueIdx

variable {α : Type}

/-- The re-laid weights at row `k` (input feature) and column `col = jt·1024 + g·256 + s` are gate `g`'s weight from input
    feature `k` to output feature `o = jt·256 + s`. -/
theorem repacked_apply (W : (⟨3, ![4, 2048, 2048]⟩ : Shape).Idx → α)
    (h1 : (⟨3, ![4, 2048, 2048]⟩ : Shape).Transposes [2, 0, 1] ⟨3, ![2048, 4, 2048]⟩)
    (h2 : (⟨3, ![2048, 4, 2048]⟩ : Shape).ShapeCasts ⟨4, ![2048, 4, 8, 256]⟩)
    (h3 : (⟨4, ![2048, 4, 8, 256]⟩ : Shape).Transposes [0, 2, 1, 3] ⟨4, ![2048, 8, 4, 256]⟩)
    (h4 : (⟨4, ![2048, 8, 4, 256]⟩ : Shape).ShapeCasts ⟨2, ![2048, 8192]⟩)
    (k : Fin 2048) (jt : Fin 8) (g : Fin 4) (s : Fin 256) (col : Fin 8192) (o : Fin 2048)
    (hcol : col.val = jt.val * 1024 + g.val * 256 + s.val) (ho : o.val = jt.val * 256 + s.val) :
    shapeCast ⟨2, ![2048, 8192]⟩
        (transpose ⟨4, ![2048, 8, 4, 256]⟩ [0, 2, 1, 3]
          (shapeCast ⟨4, ![2048, 4, 8, 256]⟩ (transpose ⟨3, ![2048, 4, 2048]⟩ [2, 0, 1] W h1) h2) h3) h4 (ix2 k col)
      = W (ix3 g o k) := by
  have hk := k.isLt
  have hjt := jt.isLt
  have hg := g.isLt
  have hs := s.isLt
  -- merging the three trailing axes: column jt·1024 + g·256 + s comes from (k, jt, g, s)
  refine (shapeCast_apply _ h4 (ix2 k col) (ix4 k jt g s) ?_).trans ?_
  · rw [Shape.rowMajor_val_four, Shape.rowMajor_val_two]
    show ((k.val * 8 + jt.val) * 4 + g.val) * 256 + s.val = k.val * 8192 + col.val
    omega
  -- swapping gate and tile
  refine (transpose_apply [0, 2, 1, 3] _ h3 (ix4 k jt g s) (ix4 k g jt s) (fun b => match b with
    | ⟨0, _⟩ => rfl
    | ⟨1, _⟩ => rfl
    | ⟨2, _⟩ => rfl
    | ⟨3, _⟩ => rfl)).trans ?_
  -- splitting the output feature into tile and position
  refine (shapeCast_apply _ h2 (ix4 k g jt s) (ix3 k g o) ?_).trans ?_
  · rw [Shape.rowMajor_val_three, Shape.rowMajor_val_four]
    show (k.val * 4 + g.val) * 2048 + o.val = ((k.val * 4 + g.val) * 8 + jt.val) * 256 + s.val
    omega
  -- moving the input-feature axis to the front
  exact transpose_apply [2, 0, 1] W h1 (ix3 k g o) (ix3 g o k) (fun b => match b with
    | ⟨0, _⟩ => rfl
    | ⟨1, _⟩ => rfl
    | ⟨2, _⟩ => rfl)

end Cert.Lstm

end
-- ==== Proof.KernelPieces.lean ====
/-
  The seven input blocks of a grid point are the pieces of the argument arrays that the point's tile depends on.

  The grid is 8 × 8: point t works on batch tile i (512 rows) and feature tile j (256 output features). Its blocks of x
  and h are rows i·512 … of the activations (converted to a narrower float format before the call, which changes nothing
  over the extended reals); its block of the old cell state is tile (i, j); its blocks of the two re-laid weight matrices
  are their columns j·1024 …, which by WeightRepack.lean hold the four gates' weights into output features j·256 …; its
  blocks of the two bias stacks are their columns j·256 ….
-/
import proofs.«122847_j6365141533233_2_alg».proof.Proof.Gen.KernelIdeal.Value
import proofs.«122847_j6365141533233_2_alg».proof.Proof.LstmTile
import proofs.«122847_j6365141533233_2_alg».proof.Proof.WeightRepack
import Idealize.ShloMosaic.Lib.StableHlo.Run

noncomputable section

namespace Cert.KernelIdeal.TileValue

open Cert.KernelIdeal Cert.KernelIdeal.Gen Idealize.ShloMosaic Idealize.ShloMosaic.TcCoe Idealize.SL.Sem
open Idealize.ShloMosaic.ValueIdx Idealize.ShloMosaic.StableHlo
open Cert.Lstm

variable (m : (ℓ : Loc nD τ sig) → Buf (Elt Ideal) ℓ)

/-! ## Which tile a grid point works on -/

/-- Every window's block index at a grid point, in terms of the point's batch tile and feature tile (the block index of the
    hidden-state output), decided over the 64 points. -/
theorem point_tiles : ∀ t : Fin cfg0.N,
    win0_7.index t (0 : Fin 2) ≤ 7 ∧ win0_7.index t (1 : Fin 2) ≤ 7
    ∧ win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = win0_7.index t (1 : Fin 2)
    ∧ win0_3.index t (0 : Fin 2) = 0 ∧ win0_3.index t (1 : Fin 2) = win0_7.index t (1 : Fin 2)
    ∧ win0_4.index t (0 : Fin 2) = 0 ∧ win0_4.index t (1 : Fin 2) = win0_7.index t (1 : Fin 2)
    ∧ win0_5.index t (0 : Fin 2) = 0 ∧ win0_5.index t (1 : Fin 2) = win0_7.index t (1 : Fin 2)
    ∧ win0_6.index t (0 : Fin 2) = 0 ∧ win0_6.index t (1 : Fin 2) = win0_7.index t (1 : Fin 2)
    ∧ win0_8.index t (0 : Fin 2) = win0_7.index t (0 : Fin 2) ∧ win0_8.index t (1 : Fin 2) = win0_7.index t (1 : Fin 2) :=
  (by decide +kernel : ∀ t : Fin grid0.N, _)

/-- Every tile of the 8 × 8 tiling is some grid point's. -/
theorem tiles_onto : ∀ (i j : Fin 8), ∃ t : Fin cfg0.N, win0_7.index t = ![i.val, j.val] :=
  (by decide +kernel : ∀ (i j : Fin 8), ∃ t : Fin grid0.N, win0_7.index t = ![i.val, j.val])

/-- The batch tile of grid point `t`. -/
def rowTile (t : Fin cfg0.N) : Fin 8 := ⟨win0_7.index t (0 : Fin 2), by have := (point_tiles t).1; omega⟩
/-- The feature tile of grid point `t`. -/
def featTile (t : Fin cfg0.N) : Fin 8 := ⟨win0_7.index t (1 : Fin 2), by have := (point_tiles t).2.1; omega⟩

/-! ## The staged arrays as the region finds them -/

/-- The array behind window 0 is x (its conversion to the narrower format is the identity here). -/
theorem entry_x (c : Dev nD) : (V m c main_v10 : S4096x2048.Idx → EReal) = (m ((c : Thread nD τ).loc main_arg0)) := by
  dsimp only [Gen.V, Gen.hostOps0]; after_results; rfl

/-- The array behind window 1 is h. -/
theorem entry_h (c : Dev nD) : (V m c main_v11 : S4096x2048.Idx → EReal) = (m ((c : Thread nD τ).loc main_arg1)) := by
  dsimp only [Gen.V, Gen.hostOps0]; after_results; rfl

/-- The array behind window 3 is the x-side weight stack, re-laid. -/
theorem entry_wx (c : Dev nD) : @Eq (S2048x8192.Idx → EReal) (V m c main_v4)
    (truncf (F := Ideal) .bf16 (shapeCast S2048x8192 (transpose S2048x8x4x256 [0, 2, 1, 3] (shapeCast S2048x4x8x256 (transpose S2048x4x2048 [2, 0, 1] (m ((c : Thread nD τ).loc main_arg3)) transposes_S4x2048x2048_S2048x4x2048_2_0_1) shapeCasts_S2048x4x2048_S2048x4x8x256) transposes_S2048x4x8x256_S2048x8x4x256_0_2_1_3) shapeCasts_S2048x8x4x256_S2048x8192) bitsLt_bf16_f32) := by
  dsimp only [Gen.V, Gen.hostOps0]; after_results; rfl

/-- The array behind window 4 is the h-side weight stack, re-laid. -/
theorem entry_wh (c : Dev nD) : @Eq (S2048x8192.Idx → EReal) (V m c main_v9)
    (truncf (F := Ideal) .bf16 (shapeCast S2048x8192 (transpose S2048x8x4x256 [0, 2, 1, 3] (shapeCast S2048x4x8x256 (transpose S2048x4x2048 [2, 0, 1] (m ((c : Thread nD τ).loc main_arg5)) transposes_S4x2048x2048_S2048x4x2048_2_0_1) shapeCasts_S2048x4x2048_S2048x4x8x256) transposes_S2048x4x8x256_S2048x8x4x256_0_2_1_3) shapeCasts_S2048x8x4x256_S2048x8192) bitsLt_bf16_f32) := by
  dsimp only [Gen.V, Gen.hostOps0]; after_results; rfl

/-! ## The seven blocks of a grid point -/

section Pieces

variable (c : Dev nD) (t : Fin cfg0.N)

/-- The block of x: rows of the point's batch tile. -/
theorem piece_x (r : Fin 512) (k : Fin 2048) :
    (iblk m c 0 t : STileAct.Idx → EReal) (ix2 r k) = (m ((c : Thread nD τ).loc main_arg0)) (ix2 (tileRow (rowTile t) r) k) := by
  obtain ⟨-, -, e00, e01, -⟩ := point_tiles t
  show (V m c main_v10 : S4096x2048.Idx → EReal) (((cfg0.win 0).blk t).view.emb (ix2 r k)) = _
  rw [entry_x]
  refine congrArg _ (funext fun a => Fin.ext ?_)
  match a with
  | ⟨0, _⟩ => show win0_0.index t (0 : Fin 2) * 512 + 1 * r.val = win0_7.index t (0 : Fin 2) * 512 + r.val; omega
  | ⟨1, _⟩ => show win0_0.index t (1 : Fin 2) * 2048 + 1 * k.val = k.val; omega

/-- The block of h: rows of the point's batch tile. -/
theorem piece_h (r : Fin 512) (k : Fin 2048) :
    (iblk m c 1 t : STileAct.Idx → EReal) (ix2 r k) = (m ((c : Thread nD τ).loc main_arg1)) (ix2 (tileRow (rowTile t) r) k) := by
  obtain ⟨-, -, -, -, e10, e11, -⟩ := point_tiles t
  show (V m c main_v11 : S4096x2048.Idx → EReal) (((cfg0.win 1).blk t).view.emb (ix2 r k)) = _
  rw [entry_h]
  refine congrArg _ (funext fun a => Fin.ext ?_)
  match a with
  | ⟨0, _⟩ => show win0_1.index t (0 : Fin 2) * 512 + 1 * r.val = win0_7.index t (0 : Fin 2) * 512 + r.val; omega
  | ⟨1, _⟩ => show win0_1.index t (1 : Fin 2) * 2048 + 1 * k.val = k.val; omega

/-- The block of the old cell state: the point's tile. -/
theorem piece_c (r : Fin 512) (s : Fin 256) :
    (iblk m c 2 t : STileOut.Idx → EReal) (ix2 r s)
      = (m ((c : Thread nD τ).loc main_arg2)) (ix2 (tileRow (rowTile t) r) (tileFeat (featTile t) s)) := by
  obtain ⟨-, -, -, -, -, -, e20, e21, -⟩ := point_tiles t
  show (V m c main_arg2 : S4096x2048.Idx → EReal) (((cfg0.win 2).blk t).view.emb (ix2 r s)) = _
  rw [V_main_arg2]
  refine congrArg _ (funext fun a => Fin.ext ?_)
  match a with
  | ⟨0, _⟩ => show win0_2.index t (0 : Fin 2) * 512 + 1 * r.val = win0_7.index t (0 : Fin 2) * 512 + r.val; omega
  | ⟨1, _⟩ => show win0_2.index t (1 : Fin 2) * 256 + 1 * s.val = win0_7.index t (1 : Fin 2) * 256 + s.val; omega

/-- A column of the point's block of a re-laid weight matrix, as a column of the whole re-laid matrix. -/
abbrev relaidCol (j : Fin 8) (g : Fin 4) (s : Fin 256) : Fin 8192 :=
  ⟨j.val * 1024 + g.val * 256 + s.val, by have := j.isLt; have := g.isLt; have := s.isLt; omega⟩

/-- The block of the re-laid x-side weights: gate `g`'s weights into the point's tile of output features. -/
theorem piece_wx (k : Fin 2048) (g : Fin 4) (s : Fin 256) :
    (iblk m c 3 t : STileWt.Idx → EReal) (ix2 k (gateCol g s)) = (m ((c : Thread nD τ).loc main_arg3)) (ix3 g (tileFeat (featTile t) s) k) := by
  obtain ⟨-, -, -, -, -, -, -, -, e30, e31, -⟩ := point_tiles t
  show (V m c main_v4 : S2048x8192.Idx → EReal) (((cfg0.win 3).blk t).view.emb (ix2 k (gateCol g s))) = _
  rw [entry_wx]
  have hcol : ((cfg0.win 3).blk t).view.emb (ix2 k (gateCol g s)) = ix2 k (relaidCol (featTile t) g s) :=
    funext fun a => Fin.ext (by
      match a with
      | ⟨0, _⟩ => show win0_3.index t (0 : Fin 2) * 2048 + 1 * k.val = k.val; omega
      | ⟨1, _⟩ =>
        show win0_3.index t (1 : Fin 2) * 1024 + 1 * (g.val * 256 + s.val) = win0_7.index t (1 : Fin 2) * 1024 + g.val * 256 + s.val
        omega)
  rw [hcol]
  exact repacked_apply _ _ _ _ _ k (featTile t) g s _ _ rfl rfl

/-- The block of the re-laid h-side weights. -/
theorem piece_wh (k : Fin 2048) (g : Fin 4) (s : Fin 256) :
    (iblk m c 4 t : STileWt.Idx → EReal) (ix2 k (gateCol g s)) = (m ((c : Thread nD τ).loc main_arg5)) (ix3 g (tileFeat (featTile t) s) k) := by
  obtain ⟨-, -, -, -, -, -, -, -, -, -, e40, e41, -⟩ := point_tiles t
  show (V m c main_v9 : S2048x8192.Idx → EReal) (((cfg0.win 4).blk t).view.emb (ix2 k (gateCol g s))) = _
  rw [entry_wh]
  have hcol : ((cfg0.win 4).blk t).view.emb (ix2 k (gateCol g s)) = ix2 k (relaidCol (featTile t) g s) :=
    funext fun a => Fin.ext (by
      match a with
      | ⟨0, _⟩ => show win0_4.index t (0 : Fin 2) * 2048 + 1 * k.val = k.val; omega
      | ⟨1, _⟩ =>
        show win0_4.index t (1 : Fin 2) * 1024 + 1 * (g.val * 256 + s.val) = win0_7.index t (1 : Fin 2) * 1024 + g.val * 256 + s.val
        omega)
  rw [hcol]
  exact repacked_apply _ _ _ _ _ k (featTile t) g s _ _ rfl rfl

/-- The block of the x-side biases: the point's tile of output features. -/
theorem piece_bx (g : Fin 4) (s : Fin 256) :
    (iblk m c 5 t : STileBias.Idx → EReal) (ix2 g s) = (m ((c : Thread nD τ).loc main_arg4)) (ix2 g (tileFeat (featTile t) s)) := by
  obtain ⟨-, -, -, -, -, -, -, -, -, -, -, -, e50, e51, -⟩ := point_tiles t
  show (V m c main_arg4 : S4x2048.Idx → EReal) (((cfg0.win 5).blk t).view.emb (ix2 g s)) = _
  rw [V_main_arg4]
  refine congrArg _ (funext fun a => Fin.ext ?_)
  match a with
  | ⟨0, _⟩ => show win0_5.index t (0 : Fin 2) * 4 + 1 * g.val = g.val; omega
  | ⟨1, _⟩ => show win0_5.index t (1 : Fin 2) * 256 + 1 * s.val = win0_7.index t (1 : Fin 2) * 256 + s.val; omega

/-- The block of the h-side biases. -/
theorem piece_bh (g : Fin 4) (s : Fin 256) :
    (iblk m c 6 t : STileBias.Idx → EReal) (ix2 g s) = (m ((c : Thread nD τ).loc main_arg6)) (ix2 g (tileFeat (featTile t) s)) := by
  obtain ⟨-, -, -, -, -, -, -, -, -, -, -, -, -, -, e60, e61, -⟩ := point_tiles t
  show (V m c main_arg6 : S4x2048.Idx → EReal) (((cfg0.win 6).blk t).view.emb (ix2 g s)) = _
  rw [V_main_arg6]
  refine congrArg _ (funext fun a => Fin.ext ?_)
  match a with
  | ⟨0, _⟩ => show win0_6.index t (0 : Fin 2) * 4 + 1 * g.val = g.val; omega
  | ⟨1, _⟩ => show win0_6.index t (1 : Fin 2) * 256 + 1 * s.val = win0_7.index t (1 : Fin 2) * 256 + s.val; omega

/-- So the seven blocks of grid point `t` are the pieces tile (rowTile t, featTile t) depends on. -/
theorem point_is_tile :
    IsTile (iblk m c 0 t) (iblk m c 1 t) (iblk m c 2 t) (iblk m c 3 t) (iblk m c 4 t) (iblk m c 5 t) (iblk m c 6 t)
      (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (rowTile t) (featTile t) :=
  ⟨piece_x m c t, piece_h m c t, piece_c m c t, piece_wx m c t, piece_wh m c t, piece_bx m c t, piece_bh m c t⟩

end Pieces

end Cert.KernelIdeal.TileValue

end
-- ==== Proof.KernelArrays.lean ====
/-
  From blocks to arrays: the kernel's two result arrays after the run are the new hidden state and the new cell state of the
  LSTM step of its seven arguments.

  Each of the 64 grid points writes one [512, 256] block of each result. By KernelTile.lean the block a point writes is the
  LSTM tile of the point's seven input blocks, by KernelPieces.lean those blocks are the pieces of the arguments the tile
  depends on, and by LstmTile.lean the tile is then the corresponding block of the whole step's result. The blocks of the
  64 points cover each [4096, 2048] result array, so each array ends holding the whole result.
-/
import proofs.«122847_j6365141533233_2_alg».proof.Proof.KernelTile
import proofs.«122847_j6365141533233_2_alg».proof.Proof.KernelPieces

noncomputable section

namespace Cert.KernelIdeal.TileValue

open Cert.KernelIdeal Cert.KernelIdeal.Gen Idealize.ShloMosaic Idealize.ShloMosaic.TcCoe Idealize.SL.Sem
open Idealize.ShloMosaic.ValueIdx
open Idealize.ShloMosaic.Pipeline (Dat)
open Cert.Lstm

variable (m : (ℓ : Loc nD τ sig) → Buf (Elt Ideal) ℓ) (ρ : Dev nD → PrngReg)

/-- What grid point `t` writes back to the hidden state array is block `t` of the new hidden state. -/
theorem hidden_flushed (c : Dev nD) (t : Fin cfg0.N) :
    (dats m 0 c).flushed 7 t = ((cfg0.win 7).blk t).view.read (Elt Ideal) (hiddenArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) := by
  obtain ⟨-, -, -, -, -, -, -, -, -, -, -, -, -, -, -, -, e80, e81⟩ := point_tiles t
  rw [Value.flushed7]
  funext y
  show out0_7 (F := Ideal) (iblk m c 0 t) (iblk m c 1 t) (iblk m c 2 t) (iblk m c 3 t) (iblk m c 4 t) (iblk m c 5 t) (iblk m c 6 t) y = hiddenArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (((cfg0.win 7).blk t).view.emb y)
  refine (hidden_block_apply (iblk m c 0 t) (iblk m c 1 t) (iblk m c 2 t) (iblk m c 3 t) (iblk m c 4 t) (iblk m c 5 t) (iblk m c 6 t) y).trans ?_
  refine (tile_hidden_eq (point_is_tile m c t) (y 0) (y 1)).trans ?_
  refine congrArg₂ _ (Fin.ext ?_) (Fin.ext ?_)
  · show win0_7.index t (0 : Fin 2) * 512 + (y 0).val = win0_7.index t (0 : Fin 2) * 512 + 1 * (y 0).val
    omega
  · show win0_7.index t (1 : Fin 2) * 256 + (y 1).val = win0_7.index t (1 : Fin 2) * 256 + 1 * (y 1).val
    omega

/-- An index of the hidden state array is in point `t`'s block iff each coordinate is in the block's range. -/
theorem hidden_mem_block (t : Fin cfg0.N) (i : S4096x2048.Idx) :
    i ∈ ((cfg0.win 7).blk t).view.set ↔ ∀ a : Fin 2, win0_7.index t a * S512x256.size a ≤ (i a).val
      ∧ (i a).val < win0_7.index t a * S512x256.size a + S512x256.size a := by
  show i ∈ ((View.whole main_v12_0).slice (win0_7.rect t)).set ↔ _
  rw [View.set_slice_whole, Rect.mem_set_unit]
  exact Iff.rfl

/-- The 64 blocks cover the hidden state array: index (b, o) is in the block of the point on tile (b / 512, o / 256). -/
theorem hidden_cover (i : S4096x2048.Idx) :
    ∃ t : Fin cfg0.N, (cfg0.win 7).flush t = true ∧ i ∈ ((cfg0.win 7).blk t).view.set := by
  have h0 : (i 0).val < 4096 := (i 0).isLt
  have h1 : (i 1).val < 2048 := (i 1).isLt
  obtain ⟨t, ht⟩ := tiles_onto ⟨(i 0).val / 512, by omega⟩ ⟨(i 1).val / 256, by omega⟩
  have q0 : win0_7.index t (0 : Fin 2) = (i 0).val / 512 := congrFun ht 0
  have q1 : win0_7.index t (1 : Fin 2) = (i 1).val / 256 := congrFun ht 1
  obtain ⟨-, -, -, -, -, -, -, -, -, -, -, -, -, -, -, -, e80, e81⟩ := point_tiles t
  refine ⟨t, flush0_7 t, ?_⟩
  rw [hidden_mem_block]
  intro a
  match a with
  | ⟨0, _⟩ =>
    show win0_7.index t (0 : Fin 2) * 512 ≤ (i 0).val ∧ (i 0).val < win0_7.index t (0 : Fin 2) * 512 + 512
    omega
  | ⟨1, _⟩ =>
    show win0_7.index t (1 : Fin 2) * 256 ≤ (i 1).val ∧ (i 1).val < win0_7.index t (1 : Fin 2) * 256 + 256
    omega

/-- So after the run the hidden state array holds the new hidden state. -/
theorem hidden_final (c : Dev nD) : (dats m 0 c).arrAt 7 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) :=
  (dats m 0 c).arrAt_eq_of_cover 7 (hiddenArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) (fun t _ => hidden_flushed m c t) hidden_cover

/-- What grid point `t` writes back to the cell state array is block `t` of the new cell state. -/
theorem cell_flushed (c : Dev nD) (t : Fin cfg0.N) :
    (dats m 0 c).flushed 8 t = ((cfg0.win 8).blk t).view.read (Elt Ideal) (cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) := by
  obtain ⟨-, -, -, -, -, -, -, -, -, -, -, -, -, -, -, -, e80, e81⟩ := point_tiles t
  rw [Value.flushed8]
  funext y
  show out0_8 (F := Ideal) (iblk m c 0 t) (iblk m c 1 t) (iblk m c 2 t) (iblk m c 3 t) (iblk m c 4 t) (iblk m c 5 t) (iblk m c 6 t) y = cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (((cfg0.win 8).blk t).view.emb y)
  refine (cell_block_apply (iblk m c 0 t) (iblk m c 1 t) (iblk m c 2 t) (iblk m c 3 t) (iblk m c 4 t) (iblk m c 5 t) (iblk m c 6 t) y).trans ?_
  refine (tile_cell_eq (point_is_tile m c t) (y 0) (y 1)).trans ?_
  refine congrArg₂ _ (Fin.ext ?_) (Fin.ext ?_)
  · show win0_7.index t (0 : Fin 2) * 512 + (y 0).val = win0_8.index t (0 : Fin 2) * 512 + 1 * (y 0).val
    omega
  · show win0_7.index t (1 : Fin 2) * 256 + (y 1).val = win0_8.index t (1 : Fin 2) * 256 + 1 * (y 1).val
    omega

/-- An index of the cell state array is in point `t`'s block iff each coordinate is in the block's range. -/
theorem cell_mem_block (t : Fin cfg0.N) (i : S4096x2048.Idx) :
    i ∈ ((cfg0.win 8).blk t).view.set ↔ ∀ a : Fin 2, win0_8.index t a * S512x256.size a ≤ (i a).val
      ∧ (i a).val < win0_8.index t a * S512x256.size a + S512x256.size a := by
  show i ∈ ((View.whole main_v12_1).slice (win0_8.rect t)).set ↔ _
  rw [View.set_slice_whole, Rect.mem_set_unit]
  exact Iff.rfl

/-- The 64 blocks cover the cell state array: index (b, o) is in the block of the point on tile (b / 512, o / 256). -/
theorem cell_cover (i : S4096x2048.Idx) :
    ∃ t : Fin cfg0.N, (cfg0.win 8).flush t = true ∧ i ∈ ((cfg0.win 8).blk t).view.set := by
  have h0 : (i 0).val < 4096 := (i 0).isLt
  have h1 : (i 1).val < 2048 := (i 1).isLt
  obtain ⟨t, ht⟩ := tiles_onto ⟨(i 0).val / 512, by omega⟩ ⟨(i 1).val / 256, by omega⟩
  have q0 : win0_7.index t (0 : Fin 2) = (i 0).val / 512 := congrFun ht 0
  have q1 : win0_7.index t (1 : Fin 2) = (i 1).val / 256 := congrFun ht 1
  obtain ⟨-, -, -, -, -, -, -, -, -, -, -, -, -, -, -, -, e80, e81⟩ := point_tiles t
  refine ⟨t, flush0_8 t, ?_⟩
  rw [cell_mem_block]
  intro a
  match a with
  | ⟨0, _⟩ =>
    show win0_8.index t (0 : Fin 2) * 512 ≤ (i 0).val ∧ (i 0).val < win0_8.index t (0 : Fin 2) * 512 + 512
    omega
  | ⟨1, _⟩ =>
    show win0_8.index t (1 : Fin 2) * 256 ≤ (i 1).val ∧ (i 1).val < win0_8.index t (1 : Fin 2) * 256 + 256
    omega

/-- So after the run the cell state array holds the new cell state. -/
theorem cell_final (c : Dev nD) : (dats m 0 c).arrAt 8 cfg0.N = cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) :=
  (dats m 0 c).arrAt_eq_of_cover 8 (cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) (fun t _ => cell_flushed m c t) cell_cover

/-- The kernel's run: it terminates with the first result array at the new hidden state and the second at the new cell
    state of the arguments, and the arguments unchanged. -/
theorem run : θ_run defs (onTc (τ := τ) (main (F := Ideal))) ⟨m, fun _ => 0, ρ⟩ fun r => ∀ c : Dev nD,
      r.2.mem ((c : Thread nD τ).loc main_v12_0) = hiddenArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
      ∧ r.2.mem ((c : Thread nD τ).loc main_v12_1) = cellArr (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (hidden_final m c), (h c).2.1.trans (cell_final m c), (h c).2.2⟩)
    (Value.run_blocks m ρ)

end Cert.KernelIdeal.TileValue

end
-- ==== Proof.ReferenceCell.lean ====
/-
  What the reference computes, read index by index: its two results are the new hidden state and the new cell state of the
  LSTM step (LstmCell.lean) of its seven arguments.

  The reference forms all four gates at once as a [4, 4096, 2048] stack — for each side a batched product of the weight
  stack with the activations, contracted over the input feature and transposed to [gate, batch, output feature], plus the
  bias row broadcast down the batch axis — adding, in this order, the x-side product, the x-side bias, the h-side product
  and the h-side bias. At (g, b, o) that is the pre-activation of LstmCell.lean with its four terms in another order.
  It then takes the stack's four rows apart, applies 1 / (1 + e^(-z)) to rows 0, 1, 2 and tanh to row 3, and combines them.
-/
import proofs.«122847_j6365141533233_2_alg».proof.Proof.Gen.ReferenceIdeal.Read
import proofs.«122847_j6365141533233_2_alg».proof.Proof.LstmCell

noncomputable section

namespace Cert.ReferenceIdeal.RefValue

open Cert.ReferenceIdeal Cert.ReferenceIdeal.Gen Cert.ReferenceIdeal.Read Idealize.ShloMosaic Idealize.ShloMosaic.ValueIdx
open Cert.Lstm

variable (x0 x1 x2 : FVec Ideal S4096x2048 .f32) (x3 : FVec Ideal S4x2048x2048 .f32) (x4 : FVec Ideal S4x2048 .f32)
  (x5 : FVec Ideal S4x2048x2048 .f32) (x6 : FVec Ideal S4x2048 .f32)

/-- The stack of pre-activations at (g, b, o): x-side product, x-side bias, h-side product, h-side bias, summed in that
    order, is the pre-activation of gate `g`. -/
theorem stack_apply (g : Fin 4) (b : Fin 4096) (o : Fin 2048) :
    val_main_v10 (F := Ideal) x0 x1 x3 x4 x5 x6 (ix3 g b o) = pre x0 x1 x3 x5 x4 x6 g b o := by
  rw [val_main_v10_apply, val_main_v7_apply, val_main_v4_apply, val_main_v1_apply, val_main_v0_apply, val_main_v3_apply,
    val_main_v2_apply, val_main_v6_apply, val_main_v5_apply, val_main_v9_apply, val_main_v8_apply]
  have l0 : ∀ k : Fin 2048, lidx_main_v0 (idx_main_v1 (ix3 g b o)) k = ix3 g o k := fun k => funext fun a => Fin.ext (by match a with | ⟨0, _⟩ => rfl | ⟨1, _⟩ => rfl | ⟨2, _⟩ => rfl)
  have r0 : ∀ k : Fin 2048, ridx_main_v0 (idx_main_v1 (ix3 g b o)) k = ix2 b k := fun k => funext fun a => Fin.ext (by match a with | ⟨0, _⟩ => rfl | ⟨1, _⟩ => rfl)
  have l5 : ∀ k : Fin 2048, lidx_main_v5 (idx_main_v6 (ix3 g b o)) k = ix3 g o k := fun k => funext fun a => Fin.ext (by match a with | ⟨0, _⟩ => rfl | ⟨1, _⟩ => rfl | ⟨2, _⟩ => rfl)
  have r5 : ∀ k : Fin 2048, ridx_main_v5 (idx_main_v6 (ix3 g b o)) k = ix2 b k := fun k => funext fun a => Fin.ext (by match a with | ⟨0, _⟩ => rfl | ⟨1, _⟩ => rfl)
  have b2 : idx_main_v2 (idx_main_v3 (ix3 g b o)) = ix2 g o := funext fun a => Fin.ext (by match a with | ⟨0, _⟩ => rfl | ⟨1, _⟩ => rfl)
  have b8 : idx_main_v8 (idx_main_v9 (ix3 g b o)) = ix2 g o := funext fun a => Fin.ext (by match a with | ⟨0, _⟩ => rfl | ⟨1, _⟩ => rfl)
  simp only [l0, r0, l5, r5, b2, b8]
  exact pre_regrouped x0 x1 x3 x5 x4 x6 g b o

/-- Row 0 of the stack of pre-activations, as a [4096, 2048] array: the input gate's. -/
theorem row0_apply (b : Fin 4096) (o : Fin 2048) :
    val_main_v12 (F := Ideal) x0 x1 x3 x4 x5 x6 (ix2 b o) = pre x0 x1 x3 x5 x4 x6 0 b o := by
  have hb := b.isLt
  have ho := o.isLt
  rw [val_main_v12_apply, val_main_v11_apply]
  have e : idx_main_v11 (idx_main_v12 (ix2 b o)) = ix3 (0 : Fin 4) b o := funext fun a => Fin.ext (by
    match a with
    | ⟨0, _⟩ => rfl
    | ⟨1, _⟩ => show (b.val * 2048 + o.val) / 2048 % 4096 = b.val; omega
    | ⟨2, _⟩ => show (b.val * 2048 + o.val) % 2048 = o.val; omega)
  rw [e, stack_apply]

/-- Row 1 of the stack of pre-activations, as a [4096, 2048] array: the forget gate's. -/
theorem row1_apply (b : Fin 4096) (o : Fin 2048) :
    val_main_v20 (F := Ideal) x0 x1 x3 x4 x5 x6 (ix2 b o) = pre x0 x1 x3 x5 x4 x6 1 b o := by
  have hb := b.isLt
  have ho := o.isLt
  rw [val_main_v20_apply, val_main_v19_apply]
  have e : idx_main_v19 (idx_main_v20 (ix2 b o)) = ix3 (1 : Fin 4) b o := funext fun a => Fin.ext (by
    match a with
    | ⟨0, _⟩ => rfl
    | ⟨1, _⟩ => show (b.val * 2048 + o.val) / 2048 % 4096 = b.val; omega
    | ⟨2, _⟩ => show (b.val * 2048 + o.val) % 2048 = o.val; omega)
  rw [e, stack_apply]

/-- Row 2 of the stack of pre-activations, as a [4096, 2048] array: the output gate's. -/
theorem row2_apply (b : Fin 4096) (o : Fin 2048) :
    val_main_v28 (F := Ideal) x0 x1 x3 x4 x5 x6 (ix2 b o) = pre x0 x1 x3 x5 x4 x6 2 b o := by
  have hb := b.isLt
  have ho := o.isLt
  rw [val_main_v28_apply, val_main_v27_apply]
  have e : idx_main_v27 (idx_main_v28 (ix2 b o)) = ix3 (2 : Fin 4) b o := funext fun a => Fin.ext (by
    match a with
    | ⟨0, _⟩ => rfl
    | ⟨1, _⟩ => show (b.val * 2048 + o.val) / 2048 % 4096 = b.val; omega
    | ⟨2, _⟩ => show (b.val * 2048 + o.val) % 2048 = o.val; omega)
  rw [e, stack_apply]

/-- Row 3 of the stack of pre-activations, as a [4096, 2048] array: the candidate's. -/
theorem row3_apply (b : Fin 4096) (o : Fin 2048) :
    val_main_v36 (F := Ideal) x0 x1 x3 x4 x5 x6 (ix2 b o) = pre x0 x1 x3 x5 x4 x6 3 b o := by
  have hb := b.isLt
  have ho := o.isLt
  rw [val_main_v36_apply, val_main_v35_apply]
  have e : idx_main_v35 (idx_main_v36 (ix2 b o)) = ix3 (3 : Fin 4) b o := funext fun a => Fin.ext (by
    match a with
    | ⟨0, _⟩ => rfl
    | ⟨1, _⟩ => show (b.val * 2048 + o.val) / 2048 % 4096 = b.val; omega
    | ⟨2, _⟩ => show (b.val * 2048 + o.val) % 2048 = o.val; omega)
  rw [e, stack_apply]

/-- The sigmoid of gate 0, written by the reference as 1 / (1 + e^(-z)), is the logistic function of its pre-activation. -/
theorem sigmoid0_apply (b : Fin 4096) (o : Fin 2048) :
    val_main_v18 (F := Ideal) x0 x1 x3 x4 x5 x6 (ix2 b o) = Ideal.logistic (pre x0 x1 x3 x5 x4 x6 0 b o) := by
  rw [val_main_v18_apply, val_main_v17_apply, val_main_cst_0_apply, val_main_v16_apply, val_main_v15_apply,
    val_main_cst_apply, val_main_v14_apply, val_main_v13_apply, row0_apply]
  exact one_div_one_add_exp_neg _

/-- The sigmoid of gate 1, written by the reference as 1 / (1 + e^(-z)), is the logistic function of its pre-activation. -/
theorem sigmoid1_apply (b : Fin 4096) (o : Fin 2048) :
    val_main_v26 (F := Ideal) x0 x1 x3 x4 x5 x6 (ix2 b o) = Ideal.logistic (pre x0 x1 x3 x5 x4 x6 1 b o) := by
  rw [val_main_v26_apply, val_main_v25_apply, val_main_cst_2_apply, val_main_v24_apply, val_main_v23_apply,
    val_main_cst_1_apply, val_main_v22_apply, val_main_v21_apply, row1_apply]
  exact one_div_one_add_exp_neg _

/-- The sigmoid of gate 2, written by the reference as 1 / (1 + e^(-z)), is the logistic function of its pre-activation. -/
theorem sigmoid2_apply (b : Fin 4096) (o : Fin 2048) :
    val_main_v34 (F := Ideal) x0 x1 x3 x4 x5 x6 (ix2 b o) = Ideal.logistic (pre x0 x1 x3 x5 x4 x6 2 b o) := by
  rw [val_main_v34_apply, val_main_v33_apply, val_main_cst_4_apply, val_main_v32_apply, val_main_v31_apply,
    val_main_cst_3_apply, val_main_v30_apply, val_main_v29_apply, row2_apply]
  exact one_div_one_add_exp_neg _

/-- The reference's second result is the new cell state. -/
theorem cell_eq : val_main_v40 (F := Ideal) x0 x1 x2 x3 x4 x5 x6 = cellArr x0 x1 x2 x3 x5 x4 x6 := by
  funext i
  obtain ⟨b, o, rfl⟩ : ∃ (b : Fin 4096) (o : Fin 2048), i = ix2 b o := ⟨i 0, i 1, eq_ix2 i⟩
  rw [val_main_v40_apply, val_main_v38_apply, val_main_v39_apply, val_main_v37_apply, sigmoid1_apply, sigmoid0_apply,
    row3_apply]
  rfl

/-- The reference's first result is the new hidden state. -/
theorem hidden_eq : val_main_v42 (F := Ideal) x0 x1 x2 x3 x4 x5 x6 = hiddenArr x0 x1 x2 x3 x5 x4 x6 := by
  funext i
  obtain ⟨b, o, rfl⟩ : ∃ (b : Fin 4096) (o : Fin 2048), i = ix2 b o := ⟨i 0, i 1, eq_ix2 i⟩
  rw [val_main_v42_apply, val_main_v41_apply, sigmoid2_apply, cell_eq]
  rfl

end Cert.ReferenceIdeal.RefValue

end
-- ==== Proof.lean ====
/-
  The kernel is an LSTM cell step on [4096, 2048] activations: the new cell state  σ(f)·c + σ(i)·tanh(g)  and the new hidden
  state  σ(o)·tanh(new cell), where the four gates' pre-activations are
      Σₖ x(b,k)·Wx(g,o,k) + Σₖ h(b,k)·Wh(g,o,k) + bx(g,o) + bh(g,o)        (LstmCell.lean).

  The kernel re-lays the two weight stacks so that one [2048, 1024] block holds all four gates' columns of a tile of 256
  output features (WeightRepack.lean), and on an 8 × 8 grid computes each [512, 256] tile of the two results with two
  matrix products per point (KernelTile.lean, KernelPieces.lean, LstmTile.lean, KernelArrays.lean). The reference forms a
  [4, 4096, 2048] stack of gates with two batched products and adds the four terms of a pre-activation in another order
  (ReferenceCell.lean). Over the extended reals both are the same function of the seven arguments, because sums and
  products commute and sums associate; the changes of float format in the kernel are the identity there, and the
  kernel's logistic function is the reference's 1 / (1 + e^(-z)). No finiteness of the inputs is used.

  The three frame claims are the generated frames (the reference's from its generated run); the idealization rewrote
  nothing, so the preservation claim is trivial.
-/
import proofs.«122847_j6365141533233_2_alg».proof.Defs
import proofs.«122847_j6365141533233_2_alg».proof.Proof.Gen.Kernel
import proofs.«122847_j6365141533233_2_alg».proof.Proof.Gen.Kernel.Skeleton
import proofs.«122847_j6365141533233_2_alg».proof.Proof.Gen.Kernel.Launch
import proofs.«122847_j6365141533233_2_alg».proof.Proof.Gen.Kernel.Points
import proofs.«122847_j6365141533233_2_alg».proof.Proof.Gen.Kernel.Frame
import proofs.«122847_j6365141533233_2_alg».proof.Proof.Gen.KernelIdeal
import proofs.«122847_j6365141533233_2_alg».proof.Proof.Gen.KernelIdeal.Skeleton
import proofs.«122847_j6365141533233_2_alg».proof.Proof.Gen.KernelIdeal.Launch
import proofs.«122847_j6365141533233_2_alg».proof.Proof.Gen.KernelIdeal.Points
import proofs.«122847_j6365141533233_2_alg».proof.Proof.Gen.KernelIdeal.Frame
import proofs.«122847_j6365141533233_2_alg».proof.Proof.Gen.ReferenceIdeal
import proofs.«122847_j6365141533233_2_alg».proof.Proof.Gen.Pre_finite_inputs
import proofs.«122847_j6365141533233_2_alg».proof.Proof.Gen.KernelIdeal.Value
import proofs.«122847_j6365141533233_2_alg».proof.Proof.Gen.ReferenceIdeal.Run
import proofs.«122847_j6365141533233_2_alg».proof.Proof.Gen.ReferenceIdeal.Read
import proofs.«122847_j6365141533233_2_alg».proof.Proof.KernelArrays
import proofs.«122847_j6365141533233_2_alg».proof.Proof.ReferenceCell
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2.2) (Cert.ReferenceIdeal.Value.run (F := Ideal) m ρ)

/-- Both programs end with the new hidden state and the new cell state of the LSTM step of the same seven arguments. -/
theorem algebraic : Cert.algebraic_KernelIdeal_ReferenceIdeal := by
  intro m ρ m' ρ' _ hagree
  refine ⟨_, _, Cert.KernelIdeal.TileValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v42_eq, Cert.ReferenceIdeal.RefValue.hidden_eq, (hagree c).1, (hagree c).2.1,
      (hagree c).2.2.1, (hagree c).2.2.2.1, (hagree c).2.2.2.2.1, (hagree c).2.2.2.2.2.1, (hagree c).2.2.2.2.2.2]
  · rw [Cert.ReferenceIdeal.Read.val_main_v40_eq, Cert.ReferenceIdeal.RefValue.cell_eq, (hagree c).1, (hagree c).2.1,
      (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
